-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S400x10000 : Shape := ⟨2, ![400, 10000]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S400x128, .f32⟩
  | .local _ .vmem, ⟨5, _⟩ => ⟨S400x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  A two-layer graph convolution over 10000 nodes with 128 features, index by index on the extended reals.

  One layer is two steps. A ROW-AFFINE step sends the node features `x` to `x · W + b`: at node `r`, feature `q`,
  the sum over `k` of `x[r,k] · W[k,q]`, plus the bias `b[q]` (the bias kept as its one row `[1,128]`). An
  AGGREGATION sends features `z` to `A · z`: at `(r,q)` the sum over all nodes `l` of `A[r,l] · z[l,q]`. Between the
  two layers the features are RECTIFIED: the larger of the entry and zero.

      twoLayer x A W₁ b₁ W₂ b₂ = A · (rectify (A · (x · W₁ + b₁)) · W₂ + b₂)

  Both programs compute exactly this composition, each sum over the whole contracted axis at once, so no sum is
  regrouped and no law beyond the definitions is used; in particular nothing here needs the entries to be finite.
-/
import Idealize.ShloMosaic.Lib.ValueIdx
import Idealize.ShloMosaic.PureOps.Ideal

noncomputable section

namespace Cert.GraphConv

open Idealize.ShloMosaic Idealize.ShloMosaic.ValueIdx

/-- Node features `[10000, 128]`, the adjacency `[10000, 10000]`, a weight matrix `[128, 128]`, a bias as one row
    `[1, 128]` and as a vector `[128]`. -/
abbrev Feat : Shape := ⟨2, ![10000, 128]⟩
abbrev Adj : Shape := ⟨2, ![10000, 10000]⟩
abbrev Wt : Shape := ⟨2, ![128, 128]⟩
abbrev BiasRow : Shape := ⟨2, ![1, 128]⟩
abbrev BiasVec : Shape := ⟨1, ![128]⟩

/-- `x · W + b`: at `(r, q)` the sum over `k` of `x[r,k] · W[k,q]`, plus `b[0,q]`. -/
def affine (x : FVec Ideal Feat .f32) (W : FVec Ideal Wt .f32) (b : FVec Ideal BiasRow .f32) : FVec Ideal Feat .f32 :=
  fun i => (∑ k : Fin 128, x (ix2 (i 0) k) * W (ix2 k (i 1))) + b (ix2 (0 : Fin 1) (i 1))

/-- `A · z`: at `(r, q)` the sum over every node `l` of `A[r,l] · z[l,q]`. -/
def aggregate (A : FVec Ideal Adj .f32) (z : FVec Ideal Feat .f32) : FVec Ideal Feat .f32 :=
  fun i => ∑ l : Fin 10000, A (ix2 (i 0) l) * z (ix2 l (i 1))

/-- The larger of each entry and zero. -/
def rectify (h : FVec Ideal Feat .f32) : FVec Ideal Feat .f32 :=
  fun i => max (h i) (Ideal.ofBits .f32 0x00000000#32)

/-- A bias vector laid out as its one row. -/
def row (b : FVec Ideal BiasVec .f32) : FVec Ideal BiasRow .f32 := fun i => b (ix1 (i 1))

/-- The hidden layer fused with the second affine step: `rectify (A · z) · W + b`. -/
def hiddenAffine (A : FVec Ideal Adj .f32) (z : FVec Ideal Feat .f32) (W : FVec Ideal Wt .f32)
    (b : FVec Ideal BiasRow .f32) : FVec Ideal Feat .f32 :=
  affine (rectify (aggregate A z)) W b

/-- The whole network. -/
def twoLayer (x : FVec Ideal Feat .f32) (A : FVec Ideal Adj .f32) (W₁ : FVec Ideal Wt .f32) (b₁ : FVec Ideal BiasVec .f32)
    (W₂ : FVec Ideal Wt .f32) (b₂ : FVec Ideal BiasVec .f32) : FVec Ideal Feat .f32 :=
  aggregate A (hiddenAffine A (affine x W₁ (row b₁)) W₂ (row b₂))

theorem affine_apply (x : FVec Ideal Feat .f32) (W : FVec Ideal Wt .f32) (b : FVec Ideal BiasRow .f32)
    (r : Fin 10000) (q : Fin 128) :
    affine x W b (ix2 r q) = (∑ k : Fin 128, x (ix2 r k) * W (ix2 k q)) + b (ix2 (0 : Fin 1) q) := rfl

theorem aggregate_apply (A : FVec Ideal Adj .f32) (z : FVec Ideal Feat .f32) (r : Fin 10000) (q : Fin 128) :
    aggregate A z (ix2 r q) = ∑ l : Fin 10000, A (ix2 r l) * z (ix2 l q) := rfl

theorem hiddenAffine_apply (A : FVec Ideal Adj .f32) (z : FVec Ideal Feat .f32) (W : FVec Ideal Wt .f32)
    (b : FVec Ideal BiasRow .f32) (r : Fin 10000) (q : Fin 128) :
    hiddenAffine A z W b (ix2 r q)
      = (∑ k : Fin 128, max (∑ l : Fin 10000, A (ix2 r l) * z (ix2 l k)) (Ideal.ofBits .f32 0x00000000#32) * W (ix2 k q))
        + b (ix2 (0 : Fin 1) q) := rfl

end Cert.GraphConv

end
-- ==== Proof.RefSpec.lean ====
/-
  The reference program computes the two-layer graph convolution.

  Read one operation at a time, each of its four matrix products is the plain sum over its contracted axis with the
  operands taken at (row, k) and (k, column); its two bias terms are the bias vector laid out as a row and that row
  repeated for every node; its rectifier is the maximum with a zero spread over the array. Stage by stage these are the
  specification's `affine`, `aggregate` and `rectify`, so the whole term is `twoLayer`.
-/
import proofs.«107544_g63067299775178_cont_9to1_m_87_2_alg».proof.Proof.Gen.ReferenceIdeal.Read
import proofs.«107544_g63067299775178_cont_9to1_m_87_2_alg».proof.Proof.Spec

noncomputable section

namespace Cert.ReferenceIdeal.RefSpec

open Cert.ReferenceIdeal Cert.ReferenceIdeal.Read Cert.GraphConv Idealize.ShloMosaic Idealize.ShloMosaic.ValueIdx

/-! ## The operand indices the readings name are (row, k) and (k, column) -/

theorem lidx_feat (i : S10000x128.Idx) (k : Fin 128) : lidx_main_v0 i k = ix2 (i 0) k :=
  funext fun a => Fin.ext (by match a with | ⟨0, _⟩ => rfl | ⟨1, _⟩ => rfl)
theorem ridx_wt (i : S10000x128.Idx) (k : Fin 128) : ridx_main_v0 i k = ix2 k (i 1) :=
  funext fun a => Fin.ext (by match a with | ⟨0, _⟩ => rfl | ⟨1, _⟩ => rfl)
theorem lidx_adj (i : S10000x128.Idx) (l : Fin 10000) : lidx_main_v4 i l = ix2 (i 0) l :=
  funext fun a => Fin.ext (by match a with | ⟨0, _⟩ => rfl | ⟨1, _⟩ => rfl)
theorem ridx_feat (i : S10000x128.Idx) (l : Fin 10000) : ridx_main_v4 i l = ix2 l (i 1) :=
  funext fun a => Fin.ext (by match a with | ⟨0, _⟩ => rfl | ⟨1, _⟩ => rfl)

/-- A bias vector set as a row and repeated for every node reads, at `i`, the specification's row at `(0, i 1)`. -/
theorem bias_apply (b : FVec Ideal S128 .f32) (i : S10000x128.Idx) :
    val_main_v2 (F := Ideal) b i = row b (ix2 (0 : Fin 1) (i 1)) := by
  rw [val_main_v2_apply, val_main_v1_apply]
  exact congrArg b (funext fun a => Fin.ext (by match a with | ⟨0, _⟩ => rfl))

/-! ## The stages -/

/-- `x · W₁ + b₁`. -/
theorem stage_affine₁ (x : FVec Ideal S10000x128 .f32) (W : FVec Ideal S128x128 .f32) (b : FVec Ideal S128 .f32) :
    val_main_v3 (F := Ideal) x W b = affine x W (row b) := by
  funext i
  rw [val_main_v3_apply, val_main_v0_apply, bias_apply]
  simp only [lidx_feat, ridx_wt]
  rfl

/-- `A ·` the first affine step. -/
theorem stage_aggregate₁ (x : FVec Ideal S10000x128 .f32) (A : FVec Ideal S10000x10000 .f32) (W : FVec Ideal S128x128 .f32)
    (b : FVec Ideal S128 .f32) :
    val_main_v4 (F := Ideal) x A W b = aggregate A (val_main_v3 (F := Ideal) x W b) := by
  funext i
  rw [val_main_v4_apply]
  simp only [lidx_adj, ridx_feat]
  rfl

/-- The rectifier: the maximum with the zero constant spread over the array. -/
theorem stage_rectify (x : FVec Ideal S10000x128 .f32) (A : FVec Ideal S10000x10000 .f32) (W : FVec Ideal S128x128 .f32)
    (b : FVec Ideal S128 .f32) :
    val_main_v5 (F := Ideal) x A W b = rectify (val_main_v4 (F := Ideal) x A W b) := by
  funext i
  rw [val_main_v5_apply, val_main_call0_v0_apply, val_main_call0_cst_apply]
  rfl

/-- The second affine step, of the rectified features. -/
theorem stage_affine₂ (x : FVec Ideal S10000x128 .f32) (A : FVec Ideal S10000x10000 .f32) (W₁ : FVec Ideal S128x128 .f32)
    (b₁ : FVec Ideal S128 .f32) (W₂ : FVec Ideal S128x128 .f32) (b₂ : FVec Ideal S128 .f32) :
    val_main_v9 (F := Ideal) x A W₁ b₁ W₂ b₂ = affine (val_main_v5 (F := Ideal) x A W₁ b₁) W₂ (row b₂) := by
  funext i
  rw [val_main_v9_apply, val_main_v6_apply]
  have hb : val_main_v8 (F := Ideal) b₂ i = row b₂ (ix2 (0 : Fin 1) (i 1)) := by
    rw [val_main_v8_apply, val_main_v7_apply]
    exact congrArg b₂ (funext fun a => Fin.ext (by match a with | ⟨0, _⟩ => rfl))
  rw [hb]
  have hl : ∀ k : Fin 128, lidx_main_v6 i k = ix2 (i 0) k := fun k =>
    funext fun a => Fin.ext (by match a with | ⟨0, _⟩ => rfl | ⟨1, _⟩ => rfl)
  have hr : ∀ k : Fin 128, ridx_main_v6 i k = ix2 k (i 1) := fun k =>
    funext fun a => Fin.ext (by match a with | ⟨0, _⟩ => rfl | ⟨1, _⟩ => rfl)
  simp only [hl, hr]
  rfl

/-- The last aggregation. -/
theorem stage_aggregate₂ (x : FVec Ideal S10000x128 .f32) (A : FVec Ideal S10000x10000 .f32) (W₁ : FVec Ideal S128x128 .f32)
    (b₁ : FVec Ideal S128 .f32) (W₂ : FVec Ideal S128x128 .f32) (b₂ : FVec Ideal S128 .f32) :
    val_main_v10 (F := Ideal) x A W₁ b₁ W₂ b₂ = aggregate A (val_main_v9 (F := Ideal) x A W₁ b₁ W₂ b₂) := by
  funext i
  rw [val_main_v10_apply]
  have hl : ∀ l : Fin 10000, lidx_main_v10 i l = ix2 (i 0) l := fun l =>
    funext fun a => Fin.ext (by match a with | ⟨0, _⟩ => rfl | ⟨1, _⟩ => rfl)
  have hr : ∀ l : Fin 10000, ridx_main_v10 i l = ix2 l (i 1) := fun l =>
    funext fun a => Fin.ext (by match a with | ⟨0, _⟩ => rfl | ⟨1, _⟩ => rfl)
  simp only [hl, hr]
  rfl

/-- The reference's result is the two-layer graph convolution of its arguments. -/
theorem result_eq (x : FVec Ideal S10000x128 .f32) (A : FVec Ideal S10000x10000 .f32) (W₁ : FVec Ideal S128x128 .f32)
    (b₁ : FVec Ideal S128 .f32) (W₂ : FVec Ideal S128x128 .f32) (b₂ : FVec Ideal S128 .f32) :
    val_main_v10 (F := Ideal) x A W₁ b₁ W₂ b₂ = twoLayer x A W₁ b₁ W₂ b₂ := by
  rw [stage_aggregate₂, stage_affine₂, stage_rectify, stage_aggregate₁, stage_affine₁]
  rfl

end Cert.ReferenceIdeal.RefSpec

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Body.lean ====
/-
  What each of the three kernel bodies stores, read at row `p` and column `q` of its `[400, 128]` output block.

  A block product into a zero accumulator is, entry by entry, the plain sum over the contracted axis (the accumulator adds
  nothing); the bias row `[1, 128]` spread over 400 rows reads its one row; a cast of a vector to its own shape is the
  vector. So the three stored blocks are, at `(p, q)`:

    first body   ∑ₖ x[p,k] · W[k,q] + b[0,q]
    second body  ∑ₖ max (∑ₗ A[p,l] · z[l,k]) 0 · W[k,q] + b[0,q]
    third body   ∑ₗ A[p,l] · z[l,q]
-/
import proofs.«107544_g63067299775178_cont_9to1_m_87_2_alg».proof.Proof.Gen.KernelIdeal.Skeleton
import proofs.«107544_g63067299775178_cont_9to1_m_87_2_alg».proof.Proof.LibDotSingle
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product of a `[400, 128]` block with a `[128, 128]` matrix -/

theorem small_lhs_0 (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem small_lhs_1 (i : S400x128.Idx) (c : dot_S400x128_S128x128_S400x128_1_0_0_1_n_n.contr.Idx) :
    (dot_S400x128_S128x128_S400x128_1_0_0_1_n_n.lhsIdx i c 1).val = (c ⟨0, by decide⟩).val :=
  dot_S400x128_S128x128_S400x128_1_0_0_1_n_n.lhsIdx_val_of_single rfl i c
theorem small_rhs_0 (i : S400x128.Idx) (c : dot_S400x128_S128x128_S400x128_1_0_0_1_n_n.contr.Idx) :
    (dot_S400x128_S128x128_S400x128_1_0_0_1_n_n.rhsIdx i c 0).val = (c ⟨0, by decide⟩).val :=
  dot_S400x128_S128x128_S400x128_1_0_0_1_n_n.rhsIdx_val_of_single rfl i c
theorem small_rhs_1 (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry `(p, q)` of a `[400,128] · [128,128]` block product into zero: the sum over the 128 contracted coordinates. -/
theorem smallDot_apply (x : FVec Ideal S400x128 .f32) (w : FVec Ideal S128x128 .f32) (p : Fin 400) (q : Fin 128) :
    matmul dot_S400x128_S128x128_S400x128_1_0_0_1_n_n none x w (constant (F := Ideal) S400x128 .f32 0x00000000#32) (ix2 p q)
      = ∑ k : Fin 128, x (ix2 p k) * w (ix2 k q) := by
  refine Cert.LibDotSingle.matmul_zero_apply dot_S400x128_S128x128_S400x128_1_0_0_1_n_n 128 rfl rfl none x w (ix2 p q)
    (fun k => ix2 p k) (fun k => ix2 k q) (fun k => ?_) (fun k => ?_)
  · have hk := contrEquiv1_symm_val dot_S400x128_S128x128_S400x128_1_0_0_1_n_n 128 rfl rfl k
    exact funext fun a => Fin.ext (by
      match a with
      | ⟨0, _⟩ => exact small_lhs_0 _ _
      | ⟨1, _⟩ => exact (small_lhs_1 _ _).trans hk)
  · have hk := contrEquiv1_symm_val dot_S400x128_S128x128_S400x128_1_0_0_1_n_n 128 rfl rfl k
    exact funext fun a => Fin.ext (by
      match a with
      | ⟨0, _⟩ => exact (small_rhs_0 _ _).trans hk
      | ⟨1, _⟩ => exact small_rhs_1 _ _)

/-! ## The product of a `[400, 10000]` block of the adjacency with the `[10000, 128]` features -/

theorem big_lhs_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem big_lhs_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem big_rhs_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem big_rhs_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry `(p, q)` of a `[400,10000] · [10000,128]` block product into zero: the sum over all 10000 nodes. -/
theorem bigDot_apply (x : FVec Ideal S400x10000 .f32) (w : FVec Ideal S10000x128 .f32) (p : Fin 400) (q : Fin 128) :
    matmul dot_S400x10000_S10000x128_S400x128_1_0_0_1_n_n none x w (constant (F := Ideal) S400x128 .f32 0x00000000#32) (ix2 p q)
      = ∑ l : Fin 10000, x (ix2 p l) * w (ix2 l q) := by
  refine Cert.LibDotSingle.matmul_zero_apply dot_S400x10000_S10000x128_S400x128_1_0_0_1_n_n 10000 rfl rfl none x w (ix2 p q)
    (fun l => ix2 p l) (fun l => ix2 l q) (fun l => ?_) (fun l => ?_)
  · have hl := contrEquiv1_symm_val dot_S400x10000_S10000x128_S400x128_1_0_0_1_n_n 10000 rfl rfl l
    exact funext fun a => Fin.ext (by
      match a with
      | ⟨0, _⟩ => exact big_lhs_0 _ _
      | ⟨1, _⟩ => exact (big_lhs_1 _ _).trans hl)
  · have hl := contrEquiv1_symm_val dot_S400x10000_S10000x128_S400x128_1_0_0_1_n_n 10000 rfl rfl l
    exact funext fun a => Fin.ext (by
      match a with
      | ⟨0, _⟩ => exact (big_rhs_0 _ _).trans hl
      | ⟨1, _⟩ => exact big_rhs_1 _ _)

/-! ## The bias row spread over the block -/

/-- The bias row, cast to its own shape and spread over 400 rows, reads its one row at every `(p, q)`. -/
theorem biasRows_apply (b : FVec Ideal S1x128 .f32) (p : Fin 400) (q : Fin 128) :
    broadcastTo S400x128 (shapeCast S1x128 b shapeCasts_S1x128_S1x128) broadcasts_S1x128_S400x128 (ix2 p q)
      = b (ix2 (0 : Fin 1) q) := by
  rw [shapeCast_self]
  exact broadcastTo_1b_ab_apply b broadcasts_S1x128_S400x128 p q

/-! ## The three stored blocks -/

/-- The first body stores `x · W + b` of its blocks. -/
theorem linear_apply (v0 : Vec Ideal S400x128 .f32) (v1 : Vec Ideal S128x128 .f32) (v3 : Vec Ideal S1x128 .f32)
    (p : Fin 400) (q : Fin 128) :
    k0_pay1 (F := Ideal) v0 v1 v3 (ix2 p q) = (∑ k : Fin 128, v0 (ix2 p k) * v1 (ix2 k q)) + v3 (ix2 (0 : Fin 1) q) := by
  show matmul dot_S400x128_S128x128_S400x128_1_0_0_1_n_n none v0 v1 (constant (F := Ideal) S400x128 .f32 0x00000000#32) (ix2 p q)
      + broadcastTo S400x128 (shapeCast S1x128 v3 shapeCasts_S1x128_S1x128) broadcasts_S1x128_S400x128 (ix2 p q) = _
  rw [smallDot_apply, biasRows_apply]

/-- The third body stores `A · z` of its blocks. -/
theorem agg_apply (v0 : Vec Ideal S400x10000 .f32) (v1 : Vec Ideal S10000x128 .f32) (p : Fin 400) (q : Fin 128) :
    k2_pay1 (F := Ideal) v0 v1 (ix2 p q) = ∑ l : Fin 10000, v0 (ix2 p l) * v1 (ix2 l q) := by
  show matmul dot_S400x10000_S10000x128_S400x128_1_0_0_1_n_n none v0 (shapeCast S10000x128 v1 shapeCasts_S10000x128_S10000x128)
      (constant (F := Ideal) S400x128 .f32 0x00000000#32) (ix2 p q) = _
  rw [bigDot_apply, shapeCast_self]

/-- The second body stores `max (A · z) 0 · W + b` of its blocks. -/
theorem aggLinear_apply (v0 : Vec Ideal S400x10000 .f32) (v1 : Vec Ideal S10000x128 .f32) (v6 : Vec Ideal S128x128 .f32)
    (v8 : Vec Ideal S1x128 .f32) (p : Fin 400) (q : Fin 128) :
    k1_pay1 (F := Ideal) v0 v1 v6 v8 (ix2 p q)
      = (∑ k : Fin 128, max (∑ l : Fin 10000, v0 (ix2 p l) * v1 (ix2 l k)) (Ideal.ofBits .f32 0x00000000#32) * v6 (ix2 k q))
        + v8 (ix2 (0 : Fin 1) q) := by
  show matmul dot_S400x128_S128x128_S400x128_1_0_0_1_n_n none
        (maximumf (matmul dot_S400x10000_S10000x128_S400x128_1_0_0_1_n_n none v0 (shapeCast S10000x128 v1 shapeCasts_S10000x128_S10000x128)
            (constant (F := Ideal) S400x128 .f32 0x00000000#32))
          (broadcast S400x128 (Scalar.ofBits (F := Ideal) .f32 0x00000000#32)))
        v6 (constant (F := Ideal) S400x128 .f32 0x00000000#32) (ix2 p q)
      + broadcastTo S400x128 (shapeCast S1x128 v8 shapeCasts_S1x128_S1x128) broadcasts_S1x128_S400x128 (ix2 p q) = _
  rw [smallDot_apply, biasRows_apply, shapeCast_self]
  refine congrArg (· + v8 (ix2 (0 : Fin 1) q)) (Finset.sum_congr rfl fun k _ => ?_)
  refine congrArg (· * v6 (ix2 k q)) ?_
  show max (matmul dot_S400x10000_S10000x128_S400x128_1_0_0_1_n_n none v0 v1 (constant (F := Ideal) S400x128 .f32 0x00000000#32) (ix2 p k))
      (Ideal.ofBits .f32 0x00000000#32) = _
  rw [bigDot_apply]

end Cert.KernelIdeal.Body

end
-- ==== Proof.Final0.lean ====
/-
  The first call, as one function of what it finds in memory: its output array ends at `x · W + b`.

  The grid has 25 points; point `t` takes rows `400·t … 400·t + 399` of the features `x` (all 128 columns), the whole
  weight matrix and the whole bias row, and writes back rows `400·t … 400·t + 399` of the output. Entry `(p, q)` of what it
  writes is `∑ₖ x[400·t + p, k] · W[k, q] + b[0, q]` — entry `(400·t + p, q)` of `x · W + b` — and every row `r` of the
  output lies in the block of the point `r / 400`, so the 25 blocks fill the array.
-/
import proofs.«107544_g63067299775178_cont_9to1_m_87_2_alg».proof.Proof.Gen.KernelIdeal.Frame
import proofs.«107544_g63067299775178_cont_9to1_m_87_2_alg».proof.Proof.Body
import proofs.«107544_g63067299775178_cont_9to1_m_87_2_alg».proof.Proof.Spec
import Idealize.ShloMosaic.Lib.Pipeline.Value

set_option maxRecDepth 16384

noncomputable section

namespace Cert.KernelIdeal.Linear

open Cert.KernelIdeal Cert.KernelIdeal.Gen Cert.KernelIdeal.Body Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One stored block against the whole-array function, over plain vectors and explicit coordinates: when row `p` of the
    block of features is row `r` of the array, and the weights and the bias row are the arrays' own, the stored entry
    `(p, q)` is `x · W + b` at `(r, q)`. -/
theorem block_apply (x0 : Vec Ideal S400x128 .f32) (x1 : Vec Ideal S128x128 .f32) (x2 : Vec Ideal S1x128 .f32)
    (X : FVec Ideal Feat .f32) (W : FVec Ideal Wt .f32) (B : FVec Ideal BiasRow .f32) (y : S400x128.Idx) (i : Feat.Idx)
    (p : Fin 400) (q : Fin 128) (r : Fin 10000) (hy : y = ix2 p q) (hi : i = ix2 r q)
    (hx : ∀ k : Fin 128, x0 (ix2 p k) = X (ix2 r k)) (hw : x1 = W) (hb : x2 = B) :
    k0_pay1 (F := Ideal) x0 x1 x2 y = affine X W B i := by
  subst hy hi hw hb
  rw [linear_apply, affine_apply]
  simp only [hx]

/-- The printed index maps over the grid: the features' and the output's row blocks are the point's, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the output is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of `x · W + b` of the arrays the call finds. -/
theorem flushed_eq (c : Dev nD) (t : Fin cfg0.N) :
    (dat0 V c).flushed 3 t
      = ((cfg0.win 3).blk t).view.read (Elt Ideal) (affine (V c main_arg0) (V c main_arg2) (V c main_call0_v0)) := by
  show (cfg0.win 3).cut (grid0.coords t) ((dat0 V c).after 3 t) = _
  rw [after0_3]
  unfold out0_3
  rw [View.canon_unit_zero origin]
  simp only [View.ld_unit_zero (S := S400x128) origin, View.ld_unit_zero (S := S128x128) origin, View.ld_unit_zero (S := S1x128) origin]
  obtain ⟨e00, e01, e10, e11, e20, e21, e30, e31⟩ := idx_facts t
  funext j
  show k0_pay1 (F := Ideal) (iblk0 V c 0 t) (iblk0 V c 1 t) (iblk0 V c 2 t) j
      = affine (V c main_arg0) (V c main_arg2) (V c main_call0_v0) (((cfg0.win 3).blk t).view.emb j)
  refine block_apply (iblk0 V c 0 t) (iblk0 V c 1 t) (iblk0 V c 2 t) (V c main_arg0) (V c main_arg2) (V c main_call0_v0) j
    (((cfg0.win 3).blk t).view.emb j) ⟨(j 0).val, (j 0).isLt⟩ ⟨(j 1).val, (j 1).isLt⟩
    ⟨(((cfg0.win 3).blk t).view.emb j 0).val, (((cfg0.win 3).blk t).view.emb j 0).isLt⟩ ?_ ?_ (fun k => ?_) ?_ ?_
  · exact funext fun a => by match a with | ⟨0, _⟩ => rfl | ⟨1, _⟩ => rfl
  · refine funext fun a => Fin.ext ?_
    match a with
    | ⟨0, _⟩ => rfl
    | ⟨1, _⟩ => show win0_3.index t (1 : Fin 2) * 128 + 1 * (j 1).val = (j 1).val; omega
  · show V c main_arg0 (((cfg0.win 0).blk t).view.emb (ix2 (⟨(j 0).val, (j 0).isLt⟩ : Fin 400) k)) = _
    refine congrArg (V c main_arg0) (funext fun a => Fin.ext ?_)
    match a with
    | ⟨0, _⟩ => show win0_0.index t (0 : Fin 2) * 400 + 1 * (j 0).val = win0_3.index t (0 : Fin 2) * 400 + 1 * (j 0).val; omega
    | ⟨1, _⟩ => show win0_0.index t (1 : Fin 2) * 128 + 1 * k.val = k.val; omega
  · refine funext fun y => ?_
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · refine funext fun y => ?_
    show V c main_call0_v0 (((cfg0.win 2).blk t).view.emb y) = V c main_call0_v0 y
    refine congrArg (V c main_call0_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the output is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_call0_v2).slice (win0_3.rect t)).set ↔ _
  rw [View.set_slice_whole, Rect.mem_set_unit]
  exact Iff.rfl

/-- Row `r` of the output lies in the block of the point `r / 400`: the blocks fill the array. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- The output array after the call is `x · W + b` of the arrays the call finds. -/
theorem final (c : Dev nD) :
    (dat0 V c).arrAt 3 cfg0.N = affine (V c main_arg0) (V c main_arg2) (V c main_call0_v0) :=
  (dat0 V c).arrAt_eq_of_cover 3 _ (fun t _ => flushed_eq V c t) cover

end Cert.KernelIdeal.Linear

end
-- ==== Proof.Final1.lean ====
/-
  The second call, as one function of what it finds in memory: its output array ends at `rectify (A · z) · W + b`.

  Point `t` of the 25 takes rows `400·t … 400·t + 399` of the adjacency `A` (all 10000 columns), the whole of the features
  `z`, the whole weight matrix and the whole bias row, and writes back rows `400·t … 400·t + 399` of the output. Entry
  `(p, q)` of what it writes is `∑ₖ max (∑ₗ A[400·t + p, l] · z[l, k]) 0 · W[k, q] + b[0, q]`: the hidden features of node
  `400·t + p` are computed whole inside the point, so nothing is carried from one point to the next, and the 25 row
  blocks fill the output.
-/
import proofs.«107544_g63067299775178_cont_9to1_m_87_2_alg».proof.Proof.Gen.KernelIdeal.Frame
import proofs.«107544_g63067299775178_cont_9to1_m_87_2_alg».proof.Proof.Body
import proofs.«107544_g63067299775178_cont_9to1_m_87_2_alg».proof.Proof.Spec
import Idealize.ShloMosaic.Lib.Pipeline.Value

set_option maxRecDepth 16384

noncomputable section

namespace Cert.KernelIdeal.AggLinear

open Cert.KernelIdeal Cert.KernelIdeal.Gen Cert.KernelIdeal.Body Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One stored block against the whole-array function, over plain vectors and explicit coordinates: when row `p` of the
    block of the adjacency is its row `r`, and the features, weights and bias row are the arrays' own, the stored entry
    `(p, q)` is `rectify (A · z) · W + b` at `(r, q)`. -/
theorem block_apply (x0 : Vec Ideal S400x10000 .f32) (x1 : Vec Ideal S10000x128 .f32) (x2 : Vec Ideal S128x128 .f32)
    (x3 : Vec Ideal S1x128 .f32) (A : FVec Ideal Adj .f32) (Z : FVec Ideal Feat .f32) (W : FVec Ideal Wt .f32)
    (B : FVec Ideal BiasRow .f32) (y : S400x128.Idx) (i : Feat.Idx)
    (p : Fin 400) (q : Fin 128) (r : Fin 10000) (hy : y = ix2 p q) (hi : i = ix2 r q)
    (hx : ∀ l : Fin 10000, x0 (ix2 p l) = A (ix2 r l)) (hz : x1 = Z) (hw : x2 = W) (hb : x3 = B) :
    k1_pay1 (F := Ideal) x0 x1 x2 x3 y = hiddenAffine A Z W B i := by
  subst hy hi hz hw hb
  rw [aggLinear_apply, hiddenAffine_apply]
  simp only [hx]

/-- The printed index maps over the grid: the adjacency's and the output's row blocks are the point's, every other block
    index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block of the output is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- What point `t` writes back is block `t` of `rectify (A · z) · W + b` of the arrays the call finds. -/
theorem flushed_eq (c : Dev nD) (t : Fin cfg1.N) :
    (dat1 V c).flushed 4 t
      = ((cfg1.win 4).blk t).view.read (Elt Ideal)
          (hiddenAffine (V c main_arg1) (V c main_call0_v2) (V c main_arg4) (V c main_call0_v1)) := by
  show (cfg1.win 4).cut (grid1.coords t) ((dat1 V c).after 4 t) = _
  rw [after1_4]
  unfold out1_4
  rw [View.canon_unit_zero origin]
  simp only [View.ld_unit_zero (S := S400x10000) origin, View.ld_unit_zero (S := S10000x128) origin,
    View.ld_unit_zero (S := S128x128) origin, View.ld_unit_zero (S := S1x128) origin]
  obtain ⟨e00, e01, e10, e11, e20, e21, e30, e31, e40, e41⟩ := idx_facts t
  funext j
  show k1_pay1 (F := Ideal) (iblk1 V c 0 t) (iblk1 V c 1 t) (iblk1 V c 2 t) (iblk1 V c 3 t) j
      = hiddenAffine (V c main_arg1) (V c main_call0_v2) (V c main_arg4) (V c main_call0_v1) (((cfg1.win 4).blk t).view.emb j)
  refine block_apply (iblk1 V c 0 t) (iblk1 V c 1 t) (iblk1 V c 2 t) (iblk1 V c 3 t)
    (V c main_arg1) (V c main_call0_v2) (V c main_arg4) (V c main_call0_v1) j
    (((cfg1.win 4).blk t).view.emb j) ⟨(j 0).val, (j 0).isLt⟩ ⟨(j 1).val, (j 1).isLt⟩
    ⟨(((cfg1.win 4).blk t).view.emb j 0).val, (((cfg1.win 4).blk t).view.emb j 0).isLt⟩ ?_ ?_ (fun l => ?_) ?_ ?_ ?_
  · exact funext fun a => by match a with | ⟨0, _⟩ => rfl | ⟨1, _⟩ => rfl
  · refine funext fun a => Fin.ext ?_
    match a with
    | ⟨0, _⟩ => rfl
    | ⟨1, _⟩ => show win1_4.index t (1 : Fin 2) * 128 + 1 * (j 1).val = (j 1).val; omega
  · show V c main_arg1 (((cfg1.win 0).blk t).view.emb (ix2 (⟨(j 0).val, (j 0).isLt⟩ : Fin 400) l)) = _
    refine congrArg (V c main_arg1) (funext fun a => Fin.ext ?_)
    match a with
    | ⟨0, _⟩ => show win1_0.index t (0 : Fin 2) * 400 + 1 * (j 0).val = win1_4.index t (0 : Fin 2) * 400 + 1 * (j 0).val; omega
    | ⟨1, _⟩ => show win1_0.index t (1 : Fin 2) * 10000 + 1 * l.val = l.val; omega
  · refine funext fun y => ?_
    show V c main_call0_v2 (((cfg1.win 1).blk t).view.emb y) = V c main_call0_v2 y
    refine congrArg (V c main_call0_v2) (funext fun a => Fin.ext ?_)
    match a with
    | ⟨0, _⟩ => show win1_1.index t (0 : Fin 2) * 10000 + 1 * (y 0).val = (y 0).val; omega
    | ⟨1, _⟩ => show win1_1.index t (1 : Fin 2) * 128 + 1 * (y 1).val = (y 1).val; omega
  · refine funext fun y => ?_
    show V c main_arg4 (((cfg1.win 2).blk t).view.emb y) = V c main_arg4 y
    refine congrArg (V c main_arg4) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · refine funext fun y => ?_
    show V c main_call0_v1 (((cfg1.win 3).blk t).view.emb y) = V c main_call0_v1 y
    refine congrArg (V c main_call0_v1) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- An index of the output is in point `t`'s block iff each coordinate is in the block's range on its axis. -/
theorem mem_blk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_call0_v3).slice (win1_4.rect t)).set ↔ _
  rw [View.set_slice_whole, Rect.mem_set_unit]
  exact Iff.rfl

/-- Row `r` of the output lies in the block of the point `r / 400`: the blocks fill the array. -/
theorem cover (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ := idx_onto ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The output array after the call is `rectify (A · z) · W + b` of the arrays the call finds. -/
theorem final (c : Dev nD) :
    (dat1 V c).arrAt 4 cfg1.N = hiddenAffine (V c main_arg1) (V c main_call0_v2) (V c main_arg4) (V c main_call0_v1) :=
  (dat1 V c).arrAt_eq_of_cover 4 _ (fun t _ => flushed_eq V c t) cover

end Cert.KernelIdeal.AggLinear

end
-- ==== Proof.Final2.lean ====
/-
  The third call, as one function of what it finds in memory: its output array ends at `A · z`.

  Point `t` of the 25 takes rows `400·t … 400·t + 399` of the adjacency `A` and the whole of the features `z`, and writes
  back rows `400·t … 400·t + 399` of the output; entry `(p, q)` of what it writes is `∑ₗ A[400·t + p, l] · z[l, q]`, and the
  25 row blocks fill the output.
-/
import proofs.«107544_g63067299775178_cont_9to1_m_87_2_alg».proof.Proof.Gen.KernelIdeal.Frame
import proofs.«107544_g63067299775178_cont_9to1_m_87_2_alg».proof.Proof.Body
import proofs.«107544_g63067299775178_cont_9to1_m_87_2_alg».proof.Proof.Spec
import Idealize.ShloMosaic.Lib.Pipeline.Value

set_option maxRecDepth 16384

noncomputable section

namespace Cert.KernelIdeal.Agg

open Cert.KernelIdeal Cert.KernelIdeal.Gen Cert.KernelIdeal.Body Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One stored block against the whole-array function, over plain vectors and explicit coordinates. -/
theorem block_apply (x0 : Vec Ideal S400x10000 .f32) (x1 : Vec Ideal S10000x128 .f32)
    (A : FVec Ideal Adj .f32) (Z : FVec Ideal Feat .f32) (y : S400x128.Idx) (i : Feat.Idx)
    (p : Fin 400) (q : Fin 128) (r : Fin 10000) (hy : y = ix2 p q) (hi : i = ix2 r q)
    (hx : ∀ l : Fin 10000, x0 (ix2 p l) = A (ix2 r l)) (hz : x1 = Z) :
    k2_pay1 (F := Ideal) x0 x1 y = aggregate A Z i := by
  subst hy hi hz
  rw [agg_apply, aggregate_apply]
  simp only [hx]

/-- The printed index maps over the grid: the adjacency's and the output's row blocks are the point's, every other block
    index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the output is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of `A · z` of the arrays the call finds. -/
theorem flushed_eq (c : Dev nD) (t : Fin cfg2.N) :
    (dat2 V c).flushed 2 t
      = ((cfg2.win 2).blk t).view.read (Elt Ideal) (aggregate (V c main_arg1) (V c main_call0_v3)) := by
  show (cfg2.win 2).cut (grid2.coords t) ((dat2 V c).after 2 t) = _
  rw [after2_2]
  unfold out2_2
  rw [View.canon_unit_zero origin]
  simp only [View.ld_unit_zero (S := S400x10000) origin, View.ld_unit_zero (S := S10000x128) origin]
  obtain ⟨e00, e01, e10, e11, e20, e21⟩ := idx_facts t
  funext j
  show k2_pay1 (F := Ideal) (iblk2 V c 0 t) (iblk2 V c 1 t) j
      = aggregate (V c main_arg1) (V c main_call0_v3) (((cfg2.win 2).blk t).view.emb j)
  refine block_apply (iblk2 V c 0 t) (iblk2 V c 1 t) (V c main_arg1) (V c main_call0_v3) j
    (((cfg2.win 2).blk t).view.emb j) ⟨(j 0).val, (j 0).isLt⟩ ⟨(j 1).val, (j 1).isLt⟩
    ⟨(((cfg2.win 2).blk t).view.emb j 0).val, (((cfg2.win 2).blk t).view.emb j 0).isLt⟩ ?_ ?_ (fun l => ?_) ?_
  · exact funext fun a => by match a with | ⟨0, _⟩ => rfl | ⟨1, _⟩ => rfl
  · refine funext fun a => Fin.ext ?_
    match a with
    | ⟨0, _⟩ => rfl
    | ⟨1, _⟩ => show win2_2.index t (1 : Fin 2) * 128 + 1 * (j 1).val = (j 1).val; omega
  · show V c main_arg1 (((cfg2.win 0).blk t).view.emb (ix2 (⟨(j 0).val, (j 0).isLt⟩ : Fin 400) l)) = _
    refine congrArg (V c main_arg1) (funext fun a => Fin.ext ?_)
    match a with
    | ⟨0, _⟩ => show win2_0.index t (0 : Fin 2) * 400 + 1 * (j 0).val = win2_2.index t (0 : Fin 2) * 400 + 1 * (j 0).val; omega
    | ⟨1, _⟩ => show win2_0.index t (1 : Fin 2) * 10000 + 1 * l.val = l.val; omega
  · refine funext fun y => ?_
    show V c main_call0_v3 (((cfg2.win 1).blk t).view.emb y) = V c main_call0_v3 y
    refine congrArg (V c main_call0_v3) (funext fun a => Fin.ext ?_)
    match a with
    | ⟨0, _⟩ => show win2_1.index t (0 : Fin 2) * 10000 + 1 * (y 0).val = (y 0).val; omega
    | ⟨1, _⟩ => show win2_1.index t (1 : Fin 2) * 128 + 1 * (y 1).val = (y 1).val; omega

/-- An index of the output is in point `t`'s block iff each coordinate is in the block's range on its axis. -/
theorem mem_blk (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v0).slice (win2_2.rect t)).set ↔ _
  rw [View.set_slice_whole, Rect.mem_set_unit]
  exact Iff.rfl

/-- Row `r` of the output lies in the block of the point `r / 400`: the blocks fill the array. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := idx_onto ⟨(i 0).val / 400, by omega⟩
  have q0 : win2_2.index t (0 : Fin 2) = (i 0).val / 400 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- The output array after the call is `A · z` of the arrays the call finds. -/
theorem final (c : Dev nD) :
    (dat2 V c).arrAt 2 cfg2.N = aggregate (V c main_arg1) (V c main_call0_v3) :=
  (dat2 V c).arrAt_eq_of_cover 2 _ (fun t _ => flushed_eq V c t) cover

end Cert.KernelIdeal.Agg

end
-- ==== Proof.Chain.lean ====
/-
  The result array, walked back through the three calls to the launch memory.

  The last call finds the adjacency as launched and, in its second operand, what the second call wrote; it leaves
  `A · z₂`. The second call finds the adjacency and the second weight matrix as launched, the second bias laid out as a row
  by the host, and what the first call wrote; it leaves `z₂ = rectify (A · z₁) · W₂ + b₂`. The first call finds the node
  features and the first weight matrix as launched and the first bias as a row; it leaves `z₁ = x · W₁ + b₁`. No call and
  no host operation writes an argument, and a call changes none of the arrays it only reads, so each of these buffers is
  read back through the earlier boundaries unchanged. Composed: the result is the two-layer graph convolution of the
  launch memory's six arguments.
-/
import proofs.«107544_g63067299775178_cont_9to1_m_87_2_alg».proof.Proof.Gen.KernelIdeal.Frame
import proofs.«107544_g63067299775178_cont_9to1_m_87_2_alg».proof.Proof.Final0
import proofs.«107544_g63067299775178_cont_9to1_m_87_2_alg».proof.Proof.Final1
import proofs.«107544_g63067299775178_cont_9to1_m_87_2_alg».proof.Proof.Final2
import proofs.«107544_g63067299775178_cont_9to1_m_87_2_alg».proof.Proof.Spec
import Idealize.ShloMosaic.Lib.ValueLayout
import Idealize.ShloMosaic.Lib.StableHlo.Run

set_option maxRecDepth 16384

noncomputable section

namespace Cert.KernelIdeal.Chain

open Cert.KernelIdeal Cert.KernelIdeal.Gen Cert.GraphConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The biases as rows -/

/-- A bias vector reshaped to `[1, 128]` is the vector laid out as its one row. -/
theorem reshape_row (b : FVec Ideal S128 .f32) : shapeCast S1x128 b shapeCasts_S128_S1x128 = row b := by
  funext i
  obtain ⟨u, q, rfl⟩ : ∃ (u : Fin 1) (q : Fin 128), i = ix2 u q := ⟨i 0, i 1, eq_ix2 i⟩
  rw [shapeCast_a_1a_apply]
  rfl

/-- After the two host reshapes the first bias row holds the first bias vector. -/
theorem entry_bias₁ (c : Dev nD) :
    W1 m ρ c (Proc.devRef .tc main_call0_v0) = row (m ((c : Thread nD τ).loc main_arg3)) := by
  have e : (W1 m ρ c (Proc.devRef .tc main_call0_v0) : S1x128.Idx → EReal)
      = shapeCast S1x128 (m ((c : Thread nD τ).loc main_arg3)) shapeCasts_S128_S1x128 := by
    show StableHlo.after hostOps0 (W0 m ρ c) (Proc.devRef .tc main_call0_v0) = _
    after_results
    rfl
  exact e.trans (reshape_row _)

/-- After the two host reshapes the second bias row holds the second bias vector. -/
theorem entry_bias₂ (c : Dev nD) :
    W1 m ρ c (Proc.devRef .tc main_call0_v1) = row (m ((c : Thread nD τ).loc main_arg5)) := by
  have e : (W1 m ρ c (Proc.devRef .tc main_call0_v1) : S1x128.Idx → EReal)
      = shapeCast S1x128 (m ((c : Thread nD τ).loc main_arg5)) shapeCasts_S128_S1x128 := by
    show StableHlo.after hostOps0 (W0 m ρ c) (Proc.devRef .tc main_call0_v1) = _
    after_results
    rfl
  exact e.trans (reshape_row _)

/-! ## The arguments at the earlier boundaries -/

/-- The adjacency when the third call is entered. -/
theorem adj_at₃ (c : Dev nD) : W3 m ρ c (Proc.devRef .tc main_arg1) = m ((c : Thread nD τ).loc main_arg1) :=
  ((W4_arr m ρ c 0).trans (((dat2 (V3 m ρ) c).arrAt_in 0 rfl _).trans (A_eq2 (V3 m ρ) c 0))).symm.trans (W4_main_arg1 m ρ c)

/-- The adjacency when the second call is entered. -/
theorem adj_at₂ (c : Dev nD) : W2 m ρ c (Proc.devRef .tc main_arg1) = m ((c : Thread nD τ).loc main_arg1) :=
  ((W3_arr m ρ c 0).trans (((dat1 (V2 m ρ) c).arrAt_in 0 rfl _).trans (A_eq1 (V2 m ρ) c 0))).symm.trans (adj_at₃ m ρ c)

/-- The second weight matrix when the second call is entered. -/
theorem wt₂_at₂ (c : Dev nD) : W2 m ρ c (Proc.devRef .tc main_arg4) = m ((c : Thread nD τ).loc main_arg4) :=
  ((W3_arr m ρ c 2).trans (((dat1 (V2 m ρ) c).arrAt_in 2 rfl _).trans (A_eq1 (V2 m ρ) c 2))).symm.trans
    ((W4_of_ne m ρ c main_arg4 (by decide)).symm.trans (W4_main_arg4 m ρ c))

/-- The second bias row when the second call is entered: the first call does not touch it. -/
theorem bias₂_at₂ (c : Dev nD) : W2 m ρ c (Proc.devRef .tc main_call0_v1) = row (m ((c : Thread nD τ).loc main_arg5)) :=
  (W2_of_ne m ρ c main_call0_v1 (by decide)).trans (entry_bias₂ m ρ c)

/-- The node features when the first call is entered. -/
theorem feat_at₁ (c : Dev nD) : W1 m ρ c (Proc.devRef .tc main_arg0) = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans ((W4_of_ne m ρ c main_arg0 (by decide)).symm.trans (W4_main_arg0 m ρ c)))

/-- The first weight matrix when the first call is entered. -/
theorem wt₁_at₁ (c : Dev nD) : W1 m ρ c (Proc.devRef .tc main_arg2) = m ((c : Thread nD τ).loc main_arg2) :=
  ((W2_arr m ρ c 1).trans (((dat0 (V1 m ρ) c).arrAt_in 1 rfl _).trans (A_eq0 (V1 m ρ) c 1))).symm.trans
    ((W3_of_ne m ρ c main_arg2 (by decide)).symm.trans ((W4_of_ne m ρ c main_arg2 (by decide)).symm.trans (W4_main_arg2 m ρ c)))

/-! ## What each call leaves -/

/-- The first call leaves `z₁ = x · W₁ + b₁`. -/
theorem left₁ (c : Dev nD) :
    W2 m ρ c (Proc.devRef .tc main_call0_v2)
      = affine (m ((c : Thread nD τ).loc main_arg0)) (m ((c : Thread nD τ).loc main_arg2)) (row (m ((c : Thread nD τ).loc main_arg3))) := by
  have h : W2 m ρ c (Proc.devRef .tc main_call0_v2)
      = affine (W1 m ρ c (Proc.devRef .tc main_arg0)) (W1 m ρ c (Proc.devRef .tc main_arg2)) (W1 m ρ c (Proc.devRef .tc main_call0_v0)) :=
    (W2_arr m ρ c 3).trans (Linear.final (V1 m ρ) c)
  rw [h, feat_at₁, wt₁_at₁, entry_bias₁]

/-- The second call leaves `z₂ = rectify (A · z₁) · W₂ + b₂`. -/
theorem left₂ (c : Dev nD) :
    W3 m ρ c (Proc.devRef .tc main_call0_v3)
      = hiddenAffine (m ((c : Thread nD τ).loc main_arg1))
          (affine (m ((c : Thread nD τ).loc main_arg0)) (m ((c : Thread nD τ).loc main_arg2)) (row (m ((c : Thread nD τ).loc main_arg3))))
          (m ((c : Thread nD τ).loc main_arg4)) (row (m ((c : Thread nD τ).loc main_arg5))) := by
  have h : W3 m ρ c (Proc.devRef .tc main_call0_v3)
      = hiddenAffine (W2 m ρ c (Proc.devRef .tc main_arg1)) (W2 m ρ c (Proc.devRef .tc main_call0_v2))
          (W2 m ρ c (Proc.devRef .tc main_arg4)) (W2 m ρ c (Proc.devRef .tc main_call0_v1)) :=
    (W3_arr m ρ c 4).trans (AggLinear.final (V2 m ρ) c)
  rw [h, adj_at₂, left₁, wt₂_at₂, bias₂_at₂]

/-- The result array at the last boundary is the two-layer graph convolution of the launch memory's arguments. -/
theorem result_eq (c : Dev nD) :
    W4 m ρ c (Proc.devRef .tc main_v0)
      = twoLayer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h : W4 m ρ c (Proc.devRef .tc main_v0)
      = aggregate (W3 m ρ c (Proc.devRef .tc main_arg1)) (W3 m ρ c (Proc.devRef .tc main_call0_v3)) :=
    (W4_arr m ρ c 2).trans (Agg.final (V3 m ρ) c)
  rw [h, adj_at₃, left₂]
  rfl

end Cert.KernelIdeal.Chain

end
-- ==== Proof.Run.lean ====
/-
  The run of the whole program with its result named.

  The program is four segments: the two host reshapes of the bias vectors, then the three calls. The contents of every
  buffer at each boundary between segments are a fold from the launch memory: a call's arrays end at what its write-backs
  leave, every other buffer as the call found it. Every weakly fair execution terminates, and in its final state every
  unscoped buffer holds the last boundary's contents — in particular the result array, beside the six argument arrays,
  which no segment writes and which therefore end as launched.

  Three facts join the segments to the launch and to the final state. The launch deals each core its unscoped buffers at
  the launch memory, its generator register and an empty debt: that is the first segment's entry state. The cores set
  nothing up together, so this is made core by core. And the last segment's exit state holds every unscoped buffer whole at
  the last boundary's contents, so read against any final state it says the memory holds those contents buffer by buffer.
-/
import proofs.«107544_g63067299775178_cont_9to1_m_87_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the six argument arrays as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit (pcfgs (F := F)) adm (pdats m ρ) () cellOf_inj emb₁ defs₀ 𝒱₀ L lv m ρ main (segs m ρ)
    (fun c Q => by rw [main_run m ρ c]) ?distinct (O₀ := 0) (hL := fun _ _ => rfl) (G := fun _ => iprop(emp))
    (u₀ := initOf (Pipeline.cells cfgs cellOf_inj) (Pipeline.launchToks cfgs cellOf_inj)) ?launch
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) ?first
    (QY := fun c s => ∀ b ∈ Pipeline.ucRefs τ sig, s.mem (((c : Thread nD τ)).1, b) = W4 m ρ c b) ?last ?post
  case distinct =>
    -- the three calls are three different pipelines
    simp only [segs, Pipeline.Seg.pipes_host, Pipeline.Seg.pipes_region, Pipeline.Seg.pipes_nil]
    decide
  case launch =>
    -- the launch element is the pipelines' own, read through the identity embedding; no core needs anything else
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have hnone : (BI.emp : sProp 𝕄) ⊢ bigSep Finset.univ (fun _ : Dev nD => (BI.emp : sProp 𝕄)) := by
      rw [BI.bigSep_emp_const]
    iintro Hu
    imodintro
    isplitl [Hu]
    · iapply hown
      iexact Hu
    · iapply hnone
      iempintro
  case first =>
    -- core by core: the unscoped buffers at the launch memory, the generator register, an empty debt
    refine Pipeline.initEach L lv fun c => ?_
    have hbufs : (unscopedBufs c (fun b => m ((c : Thread nD τ).loc b)) : sProp 𝕄)
        = StableHlo.held (c : Thread nD τ) (Pipeline.ucRefs τ sig) (W0 m ρ c) := Pipeline.unscopedBufs_held c (W0 m ρ c)
    rw [hbufs]
    iintro ⟨⟨Hbufs, Hsems, Hdebt, Hcred, Hgen, Hnone⟩, Hlev⟩
    imodintro
    isplitl [Hbufs]
    · iexact Hbufs
    isplitl [Hgen]
    · iexists (ρ c); iexact Hgen
    · iexists ∅; iexact Hdebt
  case last =>
    -- every unscoped buffer held whole at the last contents: the final memory holds them
    intro c s'
    iintro ⟨⟨Hbufs, Hgen⟩, Hstate⟩
    unfold StableHlo.held
    imodintro
    iapply (pointsTo_read_all (Pipeline.ucRefs τ sig) (fun b => (((c : Thread nD τ)).1, b)) (W4 m ρ c) s')
    isplitl [Hbufs]
    · iexact Hbufs
    · iexact Hstate
  case post =>
    -- the result is an unscoped buffer; so is each argument, which the fold walks back to the launch memory
    intro s h c
    exact ⟨h c _ (mem_uc main_v0 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩

end Cert.KernelIdeal.Whole

end
-- ==== Proof.lean ====
/-
  A two-layer dense graph convolution, `out = A · (rectify (A · (x · W₁ + b₁)) · W₂ + b₂)`, over 10000 nodes and 128
  features, computed by three kernel calls against a plain reference.

  The kernel program lays the two bias vectors out as rows and then makes three calls, each over a grid of 25 points, point
  `t` working on rows `400·t … 400·t + 399`: the first writes `z₁ = x · W₁ + b₁`; the second, for its 400 rows of the
  adjacency, forms `A · z₁` against the whole of `z₁`, rectifies it, multiplies by `W₂` and adds `b₂`, writing `z₂`; the
  third writes `A · z₂`. Every product contracts its whole axis within one point, so each output entry is one plain sum
  and no partial sums are carried or regrouped. The reference forms the same four products and two bias additions on whole
  arrays.

  On the extended reals both are therefore the same function, entry by entry: a block product into a zero accumulator and
  a whole-array product are both the sum over the contracted index; a bias row spread over rows and a bias vector spread
  over nodes both read the bias at the column; the two rectifiers are both the maximum with zero. No distributivity,
  cancellation or reordering is used, so the proof never needs the inputs to be finite.

  The three frames are the generated ones (for the reference, its generated run with the result dropped); the
  idealization rewrote nothing, so that conjunct is trivial.
-/
import proofs.«107544_g63067299775178_cont_9to1_m_87_2_alg».proof.Defs
import proofs.«107544_g63067299775178_cont_9to1_m_87_2_alg».proof.Proof.Gen.Kernel
import proofs.«107544_g63067299775178_cont_9to1_m_87_2_alg».proof.Proof.Gen.Kernel.Skeleton
import proofs.«107544_g63067299775178_cont_9to1_m_87_2_alg».proof.Proof.Gen.Kernel.Launch
import proofs.«107544_g63067299775178_cont_9to1_m_87_2_alg».proof.Proof.Gen.Kernel.Points
import proofs.«107544_g63067299775178_cont_9to1_m_87_2_alg».proof.Proof.Gen.Kernel.Frame
import proofs.«107544_g63067299775178_cont_9to1_m_87_2_alg».proof.Proof.Gen.KernelIdeal
import proofs.«107544_g63067299775178_cont_9to1_m_87_2_alg».proof.Proof.Gen.KernelIdeal.Skeleton
import proofs.«107544_g63067299775178_cont_9to1_m_87_2_alg».proof.Proof.Gen.KernelIdeal.Launch
import proofs.«107544_g63067299775178_cont_9to1_m_87_2_alg».proof.Proof.Gen.KernelIdeal.Points
import proofs.«107544_g63067299775178_cont_9to1_m_87_2_alg».proof.Proof.Gen.KernelIdeal.Frame
import proofs.«107544_g63067299775178_cont_9to1_m_87_2_alg».proof.Proof.Gen.ReferenceIdeal
import proofs.«107544_g63067299775178_cont_9to1_m_87_2_alg».proof.Proof.Gen.ReferenceIdeal.Run
import proofs.«107544_g63067299775178_cont_9to1_m_87_2_alg».proof.Proof.Gen.ReferenceIdeal.Read
import proofs.«107544_g63067299775178_cont_9to1_m_87_2_alg».proof.Proof.Gen.Pre_finite_inputs
import proofs.«107544_g63067299775178_cont_9to1_m_87_2_alg».proof.Proof.Spec
import proofs.«107544_g63067299775178_cont_9to1_m_87_2_alg».proof.Proof.RefSpec
import proofs.«107544_g63067299775178_cont_9to1_m_87_2_alg».proof.Proof.Chain
import proofs.«107544_g63067299775178_cont_9to1_m_87_2_alg».proof.Proof.Run
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the six arguments, the kernel program's result array and the reference's both end at
    the two-layer graph convolution of those arguments. -/
theorem algebraic : Cert.algebraic_KernelIdeal_ReferenceIdeal := by
  intro m ρ m' ρ' _ hagree
  refine ⟨fun c => Cert.GraphConv.twoLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefSpec.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
